-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S28672x8192 : Shape := ⟨2, ![28672, 8192]⟩
abbrev S28672x64 : Shape := ⟨2, ![28672, 64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S28672x64 : S_.BroadcastsInDim S28672x64 (![] : Fin 0 → Fin S28672x64.rank)
  reducesTo_S28672x64_S_d0_1 : S28672x64.ReducesTo [0, 1] S_

variable [Facts]

def fn {F : FTy → Type} [FloatOps F] (main_arg0 : FVec F S16x8192 .f32) (main_arg1 : IVec S28672x8192 32) (main_arg2 : FVec F S28672x64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S28672x64 .f32 := Host.absf main_arg2
  let main_cst_0 : FVec F S_ .f32 := constant S_ .f32 0x7F800000#32
  let main_v5 : FVec F S28672x64 .f32 := broadcastInDim S28672x64 ![] bcast_S_S28672x64 main_cst_0
  let main_v6 : IVec S28672x64 1 := cmpf .olt main_v4 main_v5
  let main_c_1 : IVec S_ 1 := constantI S_ 1 1#1
  let main_v7 : IVec S_ 1 := (fun x v => Host.reduce IntOp.andi x v reducesTo_S28672x64_S_d0_1 h_S_) main_v6 main_c_1
  let main_v8 : IVec S_ 1 := andi main_v3 main_v7
  main_v8
-- ==== Kernel.lean ====
abbrev S16x8192 : Shape := ⟨2, ![16, 8192]⟩
abbrev S28672x8192 : Shape := ⟨2, ![28672, 8192]⟩
abbrev S28672x64 : Shape := ⟨2, ![28672, 64]⟩
abbrev S64x28672 : Shape := ⟨2, ![64, 28672]⟩
abbrev S16x28672 : Shape := ⟨2, ![16, 28672]⟩
abbrev S256x8192 : Shape := ⟨2, ![256, 8192]⟩
abbrev S64x256 : Shape := ⟨2, ![64, 256]⟩
abbrev S16x256 : Shape := ⟨2, ![16, 256]⟩
abbrev S256x128 : Shape := ⟨2, ![256, 128]⟩
abbrev S16x128 : Shape := ⟨2, ![16, 128]⟩
abbrev S1x256 : Shape := ⟨2, ![1, 256]⟩
abbrev S256 : Shape := ⟨1, ![256]⟩

abbrev nBuf : Space → Nat
  | .hbm => 6
  | .vmem => 7
  | .smem => 0
  | _ => 0

abbrev bufTy : (tb : Table) → Fin (tcTables nBuf tb) → BufTy
  | .hbm, ⟨0, _⟩ => ⟨S16x8192, .f32⟩
  | .hbm, ⟨1, _⟩ => ⟨S28672x8192, .i32⟩
  | .hbm, ⟨2, _⟩ => ⟨S28672x64, .f32⟩
  | .hbm, ⟨3, _⟩ => ⟨S16x8192, .bf16⟩
  | .hbm, ⟨4, _⟩ => ⟨S64x28672, .f32⟩
  | .hbm, ⟨5, _⟩ => ⟨S16x28672, .f32⟩
  | .local _ .vmem, ⟨0, _⟩ => ⟨S16x8192, .bf16⟩
  | .local _ .vmem, ⟨1, _⟩ => ⟨S256x8192, .i32⟩
  | .local _ .vmem, ⟨2, _⟩ => ⟨S256x8192, .i32⟩
  | .local _ .vmem, ⟨3, _⟩ => ⟨S64x256, .f32⟩
  | .local _ .vmem, ⟨4, _⟩ => ⟨S64x256, .f32⟩
  | .local _ .vmem, ⟨5, _⟩ => ⟨S16x256, .f32⟩
  | .local _ .vmem, ⟨6, _⟩ => ⟨S16x256, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![112], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S28672x64_S64x28672_1_0 : S28672x64.Transposes [1, 0] S64x28672
  inb_S256x8192_S256x128_0_0 : ∀ a, (![0, 0] : Fin 2 → Nat) a + S256x128.size a ≤ S256x8192.size a
  h_S256x128 : 0 < S256x128.numel
  inb_S16x8192_S16x128_0_0 : ∀ a, (![0, 0] : Fin 2 → Nat) a + S16x128.size a ≤ S16x8192.size a
  h_S16x128 : 0 < S16x128.numel
  shapeCasts_S16x128_S16x128 : S16x128.ShapeCasts S16x128
  inb_S64x256_S1x256_0_0 : ∀ a, (![0, 0] : Fin 2 → Nat) a + S1x256.size a ≤ S64x256.size a
  h_S1x256 : 0 < S1x256.numel
  shapeCasts_S1x256_S256 : S1x256.ShapeCasts S256
  shapeCasts_S256_S1x256 : S256.ShapeCasts S1x256
  broadcasts_S1x256_S16x256 : S1x256.Broadcasts S16x256
  inb_S256x8192_S256x128_0_128 : ∀ a, (![0, 128] : Fin 2 → Nat) a + S256x128.size a ≤ S256x8192.size a
  inb_S16x8192_S16x128_0_128 : ∀ a, (![0, 128] : Fin 2 → Nat) a + S16x128.size a ≤ S16x8192.size a
  inb_S64x256_S1x256_1_0 : ∀ a, (![1, 0] : Fin 2 → Nat) a + S1x256.size a ≤ S64x256.size a
  inb_S256x8192_S256x128_0_256 : ∀ a, (![0, 256] : Fin 2 → Nat) a + S256x128.size a ≤ S256x8192.size a
  inb_S16x8192_S16x128_0_256 : ∀ a, (![0, 256] : Fin 2 → Nat) a + S16x128.size a ≤ S16x8192.size a
  inb_S64x256_S1x256_2_0 : ∀ a, (![2, 0] : Fin 2 → Nat) a + S1x256.size a ≤ S64x256.size a
  inb_S256x8192_S256x128_0_384 : ∀ a, (![0, 384] : Fin 2 → Nat) a + S256x128.size a ≤ S256x8192.size a
  inb_S16x8192_S16x128_0_384 : ∀ a, (![0, 384] : Fin 2 → Nat) a + S16x128.size a ≤ S16x8192.size a
  inb_S64x256_S1x256_3_0 : ∀ a, (![3, 0] : Fin 2 → Nat) a + S1x256.size a ≤ S64x256.size a
  inb_S256x8192_S256x128_0_512 : ∀ a, (![0, 512] : Fin 2 → Nat) a + S256x128.size a ≤ S256x8192.size a
  inb_S16x8192_S16x128_0_512 : ∀ a, (![0, 512] : Fin 2 → Nat) a + S16x128.size a ≤ S16x8192.size a
  inb_S64x256_S1x256_4_0 : ∀ a, (![4, 0] : Fin 2 → Nat) a + S1x256.size a ≤ S64x256.size a
  inb_S256x8192_S256x128_0_640 : ∀ a, (![0, 640] : Fin 2 → Nat) a + S256x128.size a ≤ S256x8192.size a
  inb_S16x8192_S16x128_0_640 : ∀ a, (![0, 640] : Fin 2 → Nat) a + S16x128.size a ≤ S16x8192.size a
  inb_S64x256_S1x256_5_0 : ∀ a, (![5, 0] : Fin 2 → Nat) a + S1x256.size a ≤ S64x256.size a
  inb_S256x8192_S256x128_0_768 : ∀ a, (![0, 768] : Fin 2 → Nat) a + S256x128.size a ≤ S256x8192.size a
  inb_S16x8192_S16x128_0_768 : ∀ a, (![0, 768] : Fin 2 → Nat) a + S16x128.size a ≤ S16x8192.size a
  inb_S64x256_S1x256_6_0 : ∀ a, (![6, 0] : Fin 2 → Nat) a + S1x256.size a ≤ S64x256.size a
  inb_S256x8192_S256x128_0_896 : ∀ a, (![0, 896] : Fin 2 → Nat) a + S256x128.size a ≤ S256x8192.size a
  inb_S16x8192_S16x128_0_896 : ∀ a, (![0, 896] : Fin 2 → Nat) a + S16x128.size a ≤ S16x8192.size a
  inb_S64x256_S1x256_7_0 : ∀ a, (![7, 0] : Fin 2 → Nat) a + S1x256.size a ≤ S64x256.size a
  inb_S256x8192_S256x128_0_1024 : ∀ a, (![0, 1024] : Fin 2 → Nat) a + S256x128.size a ≤ S256x8192.size a
  inb_S16x8192_S16x128_0_1024 : ∀ a, (![0, 1024] : Fin 2 → Nat) a + S16x128.size a ≤ S16x8192.size a
  inb_S64x256_S1x256_8_0 : ∀ a, (![8, 0] : Fin 2 → Nat) a + S1x256.size a ≤ S64x256.size a
  inb_S256x8192_S256x128_0_1152 : ∀ a, (![0, 1152] : Fin 2 → Nat) a + S256x128.size a ≤ S256x8192.size a
  inb_S16x8192_S16x128_0_1152 : ∀ a, (![0, 1152] : Fin 2 → Nat) a + S16x128.size a ≤ S16x8192.size a
  inb_S64x256_S1x256_9_0 : ∀ a, (![9, 0] : Fin 2 → Nat) a + S1x256.size a ≤ S64x256.size a
  inb_S256x8192_S256x128_0_1280 : ∀ a, (![0, 1280] : Fin 2 → Nat) a + S256x128.size a ≤ S256x8192.size a
  inb_S16x8192_S16x128_0_1280 : ∀ a, (![0, 1280] : Fin 2 → Nat) a + S16x128.size a ≤ S16x8192.size a
  inb_S64x256_S1x256_10_0 : ∀ a, (![10, 0] : Fin 2 → Nat) a + S1x256.size a ≤ S64x256.size a
  inb_S256x8192_S256x128_0_1408 : ∀ a, (![0, 1408] : Fin 2 → Nat) a + S256x128.size a ≤ S256x8192.size a
  inb_S16x8192_S16x128_0_1408 : ∀ a, (![0, 1408] : Fin 2 → Nat) a + S16x128.size a ≤ S16x8192.size a
  inb_S64x256_S1x256_11_0 : ∀ a, (![11, 0] : Fin 2 → Nat) a + S1x256.size a ≤ S64x256.size a
  inb_S256x8192_S256x128_0_1536 : ∀ a, (![0, 1536] : Fin 2 → Nat) a + S256x128.size a ≤ S256x8192.size a
  inb_S16x8192_S16x128_0_1536 : ∀ a, (![0, 1536] : Fin 2 → Nat) a + S16x128.size a ≤ S16x8192.size a
  inb_S64x256_S1x256_12_0 : ∀ a, (![12, 0] : Fin 2 → Nat) a + S1x256.size a ≤ S64x256.size a
  inb_S256x8192_S256x128_0_1664 : ∀ a, (![0, 1664] : Fin 2 → Nat) a + S256x128.size a ≤ S256x8192.size a
  inb_S16x8192_S16x128_0_1664 : ∀ a, (![0, 1664] : Fin 2 → Nat) a + S16x128.size a ≤ S16x8192.size a
  inb_S64x256_S1x256_13_0 : ∀ a, (![13, 0] : Fin 2 → Nat) a + S1x256.size a ≤ S64x256.size a
  inb_S256x8192_S256x128_0_1792 : ∀ a, (![0, 1792] : Fin 2 → Nat) a + S256x128.size a ≤ S256x8192.size a
  inb_S16x8192_S16x128_0_1792 : ∀ a, (![0, 1792] : Fin 2 → Nat) a + S16x128.size a ≤ S16x8192.size a
  inb_S64x256_S1x256_14_0 : ∀ a, (![14, 0] : Fin 2 → Nat) a + S1x256.size a ≤ S64x256.size a
  inb_S256x8192_S256x128_0_1920 : ∀ a, (![0, 1920] : Fin 2 → Nat) a + S256x128.size a ≤ S256x8192.size a
  inb_S16x8192_S16x128_0_1920 : ∀ a, (![0, 1920] : Fin 2 → Nat) a + S16x128.size a ≤ S16x8192.size a
  inb_S64x256_S1x256_15_0 : ∀ a, (![15, 0] : Fin 2 → Nat) a + S1x256.size a ≤ S64x256.size a
  inb_S256x8192_S256x128_0_2048 : ∀ a, (![0, 2048] : Fin 2 → Nat) a + S256x128.size a ≤ S256x8192.size a
  inb_S16x8192_S16x128_0_2048 : ∀ a, (![0, 2048] : Fin 2 → Nat) a + S16x128.size a ≤ S16x8192.size a
  inb_S64x256_S1x256_16_0 : ∀ a, (![16, 0] : Fin 2 → Nat) a + S1x256.size a ≤ S64x256.size a
  inb_S256x8192_S256x128_0_2176 : ∀ a, (![0, 2176] : Fin 2 → Nat) a + S256x128.size a ≤ S256x8192.size a
  inb_S16x8192_S16x128_0_2176 : ∀ a, (![0, 2176] : Fin 2 → Nat) a + S16x128.size a ≤ S16x8192.size a
  inb_S64x256_S1x256_17_0 : ∀ a, (![17, 0] : Fin 2 → Nat) a + S1x256.size a ≤ S64x256.size a
  inb_S256x8192_S256x128_0_2304 : ∀ a, (![0, 2304] : Fin 2 → Nat) a + S256x128.size a ≤ S256x8192.size a
  inb_S16x8192_S16x128_0_2304 : ∀ a, (![0, 2304] : Fin 2 → Nat) a + S16x128.size a ≤ S16x8192.size a
  inb_S64x256_S1x256_18_0 : ∀ a, (![18, 0] : Fin 2 → Nat) a + S1x256.size a ≤ S64x256.size a
  inb_S256x8192_S256x128_0_2432 : ∀ a, (![0, 2432] : Fin 2 → Nat) a + S256x128.size a ≤ S256x8192.size a
  inb_S16x8192_S16x128_0_2432 : ∀ a, (![0, 2432] : Fin 2 → Nat) a + S16x128.size a ≤ S16x8192.size a
  inb_S64x256_S1x256_19_0 : ∀ a, (![19, 0] : Fin 2 → Nat) a + S1x256.size a ≤ S64x256.size a
  inb_S256x8192_S256x128_0_2560 : ∀ a, (![0, 2560] : Fin 2 → Nat) a + S256x128.size a ≤ S256x8192.size a
  inb_S16x8192_S16x128_0_2560 : ∀ a, (![0, 2560] : Fin 2 → Nat) a + S16x128.size a ≤ S16x8192.size a
  inb_S64x256_S1x256_20_0 : ∀ a, (![20, 0] : Fin 2 → Nat) a + S1x256.size a ≤ S64x256.size a
  inb_S256x8192_S256x128_0_2688 : ∀ a, (![0, 2688] : Fin 2 → Nat) a + S256x128.size a ≤ S256x8192.size a
  inb_S16x8192_S16x128_0_2688 : ∀ a, (![0, 2688] : Fin 2 → Nat) a + S16x128.size a ≤ S16x8192.size a
  inb_S64x256_S1x256_21_0 : ∀ a, (![21, 0] : Fin 2 → Nat) a + S1x256.size a ≤ S64x256.size a
  inb_S256x8192_S256x128_0_2816 : ∀ a, (![0, 2816] : Fin 2 → Nat) a + S256x128.size a ≤ S256x8192.size a
  inb_S16x8192_S16x128_0_2816 : ∀ a, (![0, 2816] : Fin 2 → Nat) a + S16x128.size a ≤ S16x8192.size a
  inb_S64x256_S1x256_22_0 : ∀ a, (![22, 0] : Fin 2 → Nat) a + S1x256.size a ≤ S64x256.size a
  inb_S256x8192_S256x128_0_2944 : ∀ a, (![0, 2944] : Fin 2 → Nat) a + S256x128.size a ≤ S256x8192.size a
  inb_S16x8192_S16x128_0_2944 : ∀ a, (![0, 2944] : Fin 2 → Nat) a + S16x128.size a ≤ S16x8192.size a
  inb_S64x256_S1x256_23_0 : ∀ a, (![23, 0] : Fin 2 → Nat) a + S1x256.size a ≤ S64x256.size a
  inb_S256x8192_S256x128_0_3072 : ∀ a, (![0, 3072] : Fin 2 → Nat) a + S256x128.size a ≤ S256x8192.size a
  inb_S16x8192_S16x128_0_3072 : ∀ a, (![0, 3072] : Fin 2 → Nat) a + S16x128.size a ≤ S16x8192.size a
  inb_S64x256_S1x256_24_0 : ∀ a, (![24, 0] : Fin 2 → Nat) a + S1x256.size a ≤ S64x256.size a
  inb_S256x8192_S256x128_0_3200 : ∀ a, (![0, 3200] : Fin 2 → Nat) a + S256x128.size a ≤ S256x8192.size a
  inb_S16x8192_S16x128_0_3200 : ∀ a, (![0, 3200] : Fin 2 → Nat) a + S16x128.size a ≤ S16x8192.size a
  inb_S64x256_S1x256_25_0 : ∀ a, (![25, 0] : Fin 2 → Nat) a + S1x256.size a ≤ S64x256.size a
  inb_S256x8192_S256x128_0_3328 : ∀ a, (![0, 3328] : Fin 2 → Nat) a + S256x128.size a ≤ S256x8192.size a
  inb_S16x8192_S16x128_0_3328 : ∀ a, (![0, 3328] : Fin 2 → Nat) a + S16x128.size a ≤ S16x8192.size a
  inb_S64x256_S1x256_26_0 : ∀ a, (![26, 0] : Fin 2 → Nat) a + S1x256.size a ≤ S64x256.size a
  inb_S256x8192_S256x128_0_3456 : ∀ a, (![0, 3456] : Fin 2 → Nat) a + S256x128.size a ≤ S256x8192.size a
  inb_S16x8192_S16x128_0_3456 : ∀ a, (![0, 3456] : Fin 2 → Nat) a + S16x128.size a ≤ S16x8192.size a
  inb_S64x256_S1x256_27_0 : ∀ a, (![27, 0] : Fin 2 → Nat) a + S1x256.size a ≤ S64x256.size a
  inb_S256x8192_S256x128_0_3584 : ∀ a, (![0, 3584] : Fin 2 → Nat) a + S256x128.size a ≤ S256x8192.size a
  inb_S16x8192_S16x128_0_3584 : ∀ a, (![0, 3584] : Fin 2 → Nat) a + S16x128.size a ≤ S16x8192.size a
  inb_S64x256_S1x256_28_0 : ∀ a, (![28, 0] : Fin 2 → Nat) a + S1x256.size a ≤ S64x256.size a
  inb_S256x8192_S256x128_0_3712 : ∀ a, (![0, 3712] : Fin 2 → Nat) a + S256x128.size a ≤ S256x8192.size a
  inb_S16x8192_S16x128_0_3712 : ∀ a, (![0, 3712] : Fin 2 → Nat) a + S16x128.size a ≤ S16x8192.size a
  inb_S64x256_S1x256_29_0 : ∀ a, (![29, 0] : Fin 2 → Nat) a + S1x256.size a ≤ S64x256.size a
  inb_S256x8192_S256x128_0_3840 : ∀ a, (![0, 3840] : Fin 2 → Nat) a + S256x128.size a ≤ S256x8192.size a
  inb_S16x8192_S16x128_0_3840 : ∀ a, (![0, 3840] : Fin 2 → Nat) a + S16x128.size a ≤ S16x8192.size a
  inb_S64x256_S1x256_30_0 : ∀ a, (![30, 0] : Fin 2 → Nat) a + S1x256.size a ≤ S64x256.size a
  inb_S256x8192_S256x128_0_3968 : ∀ a, (![0, 3968] : Fin 2 → Nat) a + S256x128.size a ≤ S256x8192.size a
  inb_S16x8192_S16x128_0_3968 : ∀ a, (![0, 3968] : Fin 2 → Nat) a + S16x128.size a ≤ S16x8192.size a
  inb_S64x256_S1x256_31_0 : ∀ a, (![31, 0] : Fin 2 → Nat) a + S1x256.size a ≤ S64x256.size a
  inb_S256x8192_S256x128_0_4096 : ∀ a, (![0, 4096] : Fin 2 → Nat) a + S256x128.size a ≤ S256x8192.size a
  inb_S16x8192_S16x128_0_4096 : ∀ a, (![0, 4096] : Fin 2 → Nat) a + S16x128.size a ≤ S16x8192.size a
  inb_S64x256_S1x256_32_0 : ∀ a, (![32, 0] : Fin 2 → Nat) a + S1x256.size a ≤ S64x256.size a
  inb_S256x8192_S256x128_0_4224 : ∀ a, (![0, 4224] : Fin 2 → Nat) a + S256x128.size a ≤ S256x8192.size a
  inb_S16x8192_S16x128_0_4224 : ∀ a, (![0, 4224] : Fin 2 → Nat) a + S16x128.size a ≤ S16x8192.size a
  inb_S64x256_S1x256_33_0 : ∀ a, (![33, 0] : Fin 2 → Nat) a + S1x256.size a ≤ S64x256.size a
  inb_S256x8192_S256x128_0_4352 : ∀ a, (![0, 4352] : Fin 2 → Nat) a + S256x128.size a ≤ S256x8192.size a
  inb_S16x8192_S16x128_0_4352 : ∀ a, (![0, 4352] : Fin 2 → Nat) a + S16x128.size a ≤ S16x8192.size a
  inb_S64x256_S1x256_34_0 : ∀ a, (![34, 0] : Fin 2 → Nat) a + S1x256.size a ≤ S64x256.size a
  inb_S256x8192_S256x128_0_4480 : ∀ a, (![0, 4480] : Fin 2 → Nat) a + S256x128.size a ≤ S256x8192.size a
  inb_S16x8192_S16x128_0_4480 : ∀ a, (![0, 4480] : Fin 2 → Nat) a + S16x128.size a ≤ S16x8192.size a
  inb_S64x256_S1x256_35_0 : ∀ a, (![35, 0] : Fin 2 → Nat) a + S1x256.size a ≤ S64x256.size a
  inb_S256x8192_S256x128_0_4608 : ∀ a, (![0, 4608] : Fin 2 → Nat) a + S256x128.size a ≤ S256x8192.size a
  inb_S16x8192_S16x128_0_4608 : ∀ a, (![0, 4608] : Fin 2 → Nat) a + S16x128.size a ≤ S16x8192.size a
  inb_S64x256_S1x256_36_0 : ∀ a, (![36, 0] : Fin 2 → Nat) a + S1x256.size a ≤ S64x256.size a
  inb_S256x8192_S256x128_0_4736 : ∀ a, (![0, 4736] : Fin 2 → Nat) a + S256x128.size a ≤ S256x8192.size a
  inb_S16x8192_S16x128_0_4736 : ∀ a, (![0, 4736] : Fin 2 → Nat) a + S16x128.size a ≤ S16x8192.size a
  inb_S64x256_S1x256_37_0 : ∀ a, (![37, 0] : Fin 2 → Nat) a + S1x256.size a ≤ S64x256.size a
  inb_S256x8192_S256x128_0_4864 : ∀ a, (![0, 4864] : Fin 2 → Nat) a + S256x128.size a ≤ S256x8192.size a
  inb_S16x8192_S16x128_0_4864 : ∀ a, (![0, 4864] : Fin 2 → Nat) a + S16x128.size a ≤ S16x8192.size a
  inb_S64x256_S1x256_38_0 : ∀ a, (![38, 0] : Fin 2 → Nat) a + S1x256.size a ≤ S64x256.size a
  inb_S256x8192_S256x128_0_4992 : ∀ a, (![0, 4992] : Fin 2 → Nat) a + S256x128.size a ≤ S256x8192.size a
  inb_S16x8192_S16x128_0_4992 : ∀ a, (![0, 4992] : Fin 2 → Nat) a + S16x128.size a ≤ S16x8192.size a
  inb_S64x256_S1x256_39_0 : ∀ a, (![39, 0] : Fin 2 → Nat) a + S1x256.size a ≤ S64x256.size a
  inb_S256x8192_S256x128_0_5120 : ∀ a, (![0, 5120] : Fin 2 → Nat) a + S256x128.size a ≤ S256x8192.size a
  inb_S16x8192_S16x128_0_5120 : ∀ a, (![0, 5120] : Fin 2 → Nat) a + S16x128.size a ≤ S16x8192.size a
  inb_S64x256_S1x256_40_0 : ∀ a, (![40, 0] : Fin 2 → Nat) a + S1x256.size a ≤ S64x256.size a
  inb_S256x8192_S256x128_0_5248 : ∀ a, (![0, 5248] : Fin 2 → Nat) a + S256x128.size a ≤ S256x8192.size a
  inb_S16x8192_S16x128_0_5248 : ∀ a, (![0, 5248] : Fin 2 → Nat) a + S16x128.size a ≤ S16x8192.size a
  inb_S64x256_S1x256_41_0 : ∀ a, (![41, 0] : Fin 2 → Nat) a + S1x256.size a ≤ S64x256.size a
  inb_S256x8192_S256x128_0_5376 : ∀ a, (![0, 5376] : Fin 2 → Nat) a + S256x128.size a ≤ S256x8192.size a
  inb_S16x8192_S16x128_0_5376 : ∀ a, (![0, 5376] : Fin 2 → Nat) a + S16x128.size a ≤ S16x8192.size a
  inb_S64x256_S1x256_42_0 : ∀ a, (![42, 0] : Fin 2 → Nat) a + S1x256.size a ≤ S64x256.size a
  inb_S256x8192_S256x128_0_5504 : ∀ a, (![0, 5504] : Fin 2 → Nat) a + S256x128.size a ≤ S256x8192.size a
  inb_S16x8192_S16x128_0_5504 : ∀ a, (![0, 5504] : Fin 2 → Nat) a + S16x128.size a ≤ S16x8192.size a
  inb_S64x256_S1x256_43_0 : ∀ a, (![43, 0] : Fin 2 → Nat) a + S1x256.size a ≤ S64x256.size a
  inb_S256x8192_S256x128_0_5632 : ∀ a, (![0, 5632] : Fin 2 → Nat) a + S256x128.size a ≤ S256x8192.size a
  inb_S16x8192_S16x128_0_5632 : ∀ a, (![0, 5632] : Fin 2 → Nat) a + S16x128.size a ≤ S16x8192.size a
  inb_S64x256_S1x256_44_0 : ∀ a, (![44, 0] : Fin 2 → Nat) a + S1x256.size a ≤ S64x256.size a
  inb_S256x8192_S256x128_0_5760 : ∀ a, (![0, 5760] : Fin 2 → Nat) a + S256x128.size a ≤ S256x8192.size a
  inb_S16x8192_S16x128_0_5760 : ∀ a, (![0, 5760] : Fin 2 → Nat) a + S16x128.size a ≤ S16x8192.size a
  inb_S64x256_S1x256_45_0 : ∀ a, (![45, 0] : Fin 2 → Nat) a + S1x256.size a ≤ S64x256.size a
  inb_S256x8192_S256x128_0_5888 : ∀ a, (![0, 5888] : Fin 2 → Nat) a + S256x128.size a ≤ S256x8192.size a
  inb_S16x8192_S16x128_0_5888 : ∀ a, (![0, 5888] : Fin 2 → Nat) a + S16x128.size a ≤ S16x8192.size a
  inb_S64x256_S1x256_46_0 : ∀ a, (![46, 0] : Fin 2 → Nat) a + S1x256.size a ≤ S64x256.size a
  inb_S256x8192_S256x128_0_6016 : ∀ a, (![0, 6016] : Fin 2 → Nat) a + S256x128.size a ≤ S256x8192.size a
  inb_S16x8192_S16x128_0_6016 : ∀ a, (![0, 6016] : Fin 2 → Nat) a + S16x128.size a ≤ S16x8192.size a
  inb_S64x256_S1x256_47_0 : ∀ a, (![47, 0] : Fin 2 → Nat) a + S1x256.size a ≤ S64x256.size a
  inb_S256x8192_S256x128_0_6144 : ∀ a, (![0, 6144] : Fin 2 → Nat) a + S256x128.size a ≤ S256x8192.size a
  inb_S16x8192_S16x128_0_6144 : ∀ a, (![0, 6144] : Fin 2 → Nat) a + S16x128.size a ≤ S16x8192.size a
  inb_S64x256_S1x256_48_0 : ∀ a, (![48, 0] : Fin 2 → Nat) a + S1x256.size a ≤ S64x256.size a
  inb_S256x8192_S256x128_0_6272 : ∀ a, (![0, 6272] : Fin 2 → Nat) a + S256x128.size a ≤ S256x8192.size a
  inb_S16x8192_S16x128_0_6272 : ∀ a, (![0, 6272] : Fin 2 → Nat) a + S16x128.size a ≤ S16x8192.size a
  inb_S64x256_S1x256_49_0 : ∀ a, (![49, 0] : Fin 2 → Nat) a + S1x256.size a ≤ S64x256.size a
  inb_S256x8192_S256x128_0_6400 : ∀ a, (![0, 6400] : Fin 2 → Nat) a + S256x128.size a ≤ S256x8192.size a
  inb_S16x8192_S16x128_0_6400 : ∀ a, (![0, 6400] : Fin 2 → Nat) a + S16x128.size a ≤ S16x8192.size a
  inb_S64x256_S1x256_50_0 : ∀ a, (![50, 0] : Fin 2 → Nat) a + S1x256.size a ≤ S64x256.size a
  inb_S256x8192_S256x128_0_6528 : ∀ a, (![0, 6528] : Fin 2 → Nat) a + S256x128.size a ≤ S256x8192.size a
  inb_S16x8192_S16x128_0_6528 : ∀ a, (![0, 6528] : Fin 2 → Nat) a + S16x128.size a ≤ S16x8192.size a
  inb_S64x256_S1x256_51_0 : ∀ a, (![51, 0] : Fin 2 → Nat) a + S1x256.size a ≤ S64x256.size a
  inb_S256x8192_S256x128_0_6656 : ∀ a, (![0, 6656] : Fin 2 → Nat) a + S256x128.size a ≤ S256x8192.size a
  inb_S16x8192_S16x128_0_6656 : ∀ a, (![0, 6656] : Fin 2 → Nat) a + S16x128.size a ≤ S16x8192.size a
  inb_S64x256_S1x256_52_0 : ∀ a, (![52, 0] : Fin 2 → Nat) a + S1x256.size a ≤ S64x256.size a
  inb_S256x8192_S256x128_0_6784 : ∀ a, (![0, 6784] : Fin 2 → Nat) a + S256x128.size a ≤ S256x8192.size a
  inb_S16x8192_S16x128_0_6784 : ∀ a, (![0, 6784] : Fin 2 → Nat) a + S16x128.size a ≤ S16x8192.size a
  inb_S64x256_S1x256_53_0 : ∀ a, (![53, 0] : Fin 2 → Nat) a + S1x256.size a ≤ S64x256.size a
  inb_S256x8192_S256x128_0_6912 : ∀ a, (![0, 6912] : Fin 2 → Nat) a + S256x128.size a ≤ S256x8192.size a
  inb_S16x8192_S16x128_0_6912 : ∀ a, (![0, 6912] : Fin 2 → Nat) a + S16x128.size a ≤ S16x8192.size a
  inb_S64x256_S1x256_54_0 : ∀ a, (![54, 0] : Fin 2 → Nat) a + S1x256.size a ≤ S64x256.size a
  inb_S256x8192_S256x128_0_7040 : ∀ a, (![0, 7040] : Fin 2 → Nat) a + S256x128.size a ≤ S256x8192.size a
  inb_S16x8192_S16x128_0_7040 : ∀ a, (![0, 7040] : Fin 2 → Nat) a + S16x128.size a ≤ S16x8192.size a
  inb_S64x256_S1x256_55_0 : ∀ a, (![55, 0] : Fin 2 → Nat) a + S1x256.size a ≤ S64x256.size a
  inb_S256x8192_S256x128_0_7168 : ∀ a, (![0, 7168] : Fin 2 → Nat) a + S256x128.size a ≤ S256x8192.size a
  inb_S16x8192_S16x128_0_7168 : ∀ a, (![0, 7168] : Fin 2 → Nat) a + S16x128.size a ≤ S16x8192.size a
  inb_S64x256_S1x256_56_0 : ∀ a, (![56, 0] : Fin 2 → Nat) a + S1x256.size a ≤ S64x256.size a
  inb_S256x8192_S256x128_0_7296 : ∀ a, (![0, 7296] : Fin 2 → Nat) a + S256x128.size a ≤ S256x8192.size a
  inb_S16x8192_S16x128_0_7296 : ∀ a, (![0, 7296] : Fin 2 → Nat) a + S16x128.size a ≤ S16x8192.size a
  inb_S64x256_S1x256_57_0 : ∀ a, (![57, 0] : Fin 2 → Nat) a + S1x256.size a ≤ S64x256.size a
  inb_S256x8192_S256x128_0_7424 : ∀ a, (![0, 7424] : Fin 2 → Nat) a + S256x128.size a ≤ S256x8192.size a
  inb_S16x8192_S16x128_0_7424 : ∀ a, (![0, 7424] : Fin 2 → Nat) a + S16x128.size a ≤ S16x8192.size a
  inb_S64x256_S1x256_58_0 : ∀ a, (![58, 0] : Fin 2 → Nat) a + S1x256.size a ≤ S64x256.size a
  inb_S256x8192_S256x128_0_7552 : ∀ a, (![0, 7552] : Fin 2 → Nat) a + S256x128.size a ≤ S256x8192.size a
  inb_S16x8192_S16x128_0_7552 : ∀ a, (![0, 7552] : Fin 2 → Nat) a + S16x128.size a ≤ S16x8192.size a
  inb_S64x256_S1x256_59_0 : ∀ a, (![59, 0] : Fin 2 → Nat) a + S1x256.size a ≤ S64x256.size a
  inb_S256x8192_S256x128_0_7680 : ∀ a, (![0, 7680] : Fin 2 → Nat) a + S256x128.size a ≤ S256x8192.size a
  inb_S16x8192_S16x128_0_7680 : ∀ a, (![0, 7680] : Fin 2 → Nat) a + S16x128.size a ≤ S16x8192.size a
  inb_S64x256_S1x256_60_0 : ∀ a, (![60, 0] : Fin 2 → Nat) a + S1x256.size a ≤ S64x256.size a
  inb_S256x8192_S256x128_0_7808 : ∀ a, (![0, 7808] : Fin 2 → Nat) a + S256x128.size a ≤ S256x8192.size a
  inb_S16x8192_S16x128_0_7808 : ∀ a, (![0, 7808] : Fin 2 → Nat) a + S16x128.size a ≤ S16x8192.size a
  inb_S64x256_S1x256_61_0 : ∀ a, (![61, 0] : Fin 2 → Nat) a + S1x256.size a ≤ S64x256.size a
  inb_S256x8192_S256x128_0_7936 : ∀ a, (![0, 7936] : Fin 2 → Nat) a + S256x128.size a ≤ S256x8192.size a
  inb_S16x8192_S16x128_0_7936 : ∀ a, (![0, 7936] : Fin 2 → Nat) a + S16x128.size a ≤ S16x8192.size a
  inb_S64x256_S1x256_62_0 : ∀ a, (![62, 0] : Fin 2 → Nat) a + S1x256.size a ≤ S64x256.size a
  inb_S256x8192_S256x128_0_8064 : ∀ a, (![0, 8064] : Fin 2 → Nat) a + S256x128.size a ≤ S256x8192.size a
  inb_S16x8192_S16x128_0_8064 : ∀ a, (![0, 8064] : Fin 2 → Nat) a + S16x128.size a ≤ S16x8192.size a
  inb_S64x256_S1x256_63_0 : ∀ a, (![63, 0] : Fin 2 → Nat) a + S1x256.size a ≤ S64x256.size a
  inb_S16x256_S16x256_0_0 : ∀ a, (![0, 0] : Fin 2 → Nat) a + S16x256.size a ≤ S16x256.size a
  h_S16x256 : 0 < S16x256.numel
  dot_S16x128_S256x128_S16x256_1_1_0_0_n_n_wf : DotDims.WF S16x128 S256x128 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .bf16 = 32 ∨ (Rect.block (s := S16x8192) S16x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S28672x8192.size a
  hwx0_1 : ∀ i : grid0.Coords, EltTy.bits .i32 = 32 ∨ (Rect.block (s := S28672x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x28672.size a
  hwx0_2 : ∀ i : grid0.Coords, EltTy.bits .f32 = 32 ∨ (Rect.block (s := S64x28672) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x28672.size a
  hwx0_3 : ∀ i : grid0.Coords, EltTy.bits .f32 = 32 ∨ (Rect.block (s := S16x28672) S16x256.size (cc0_transform_3 i) (hinb0_3 i)).WholeWords (EltTy.packing .f32)

variable [Facts₀]

def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf

abbrev win0_0 : Pipeline.Window sig grid0 :=
  Pipeline.Window.ofSpec (Memref.whole main_v0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192 : Shape := ⟨2, ![16, 8192]⟩
abbrev S28672x8192 : Shape := ⟨2, ![28672, 8192]⟩
abbrev S28672x64 : Shape := ⟨2, ![28672, 64]⟩
abbrev S28672x64x128 : Shape := ⟨3, ![28672, 64, 128]⟩
abbrev S28672x64x1 : Shape := ⟨3, ![28672, 64, 1]⟩
abbrev S8192x28672 : Shape := ⟨2, ![8192, 28672]⟩
abbrev S16x28672 : Shape := ⟨2, ![16, 28672]⟩

abbrev nBuf : Space → Nat
  | .hbm => 11
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S28672x8192, .i32⟩
  | .hbm, ⟨2, _⟩ => ⟨S28672x64, .f32⟩
  | .hbm, ⟨3, _⟩ => ⟨S28672x8192, .f32⟩
  | .hbm, ⟨4, _⟩ => ⟨S28672x64x128, .f32⟩
  | .hbm, ⟨5, _⟩ => ⟨S28672x64x1, .f32⟩
  | .hbm, ⟨6, _⟩ => ⟨S28672x64x128, .f32⟩
  | .hbm, ⟨7, _⟩ => ⟨S28672x64x128, .f32⟩
  | .hbm, ⟨8, _⟩ => ⟨S28672x8192, .f32⟩
  | .hbm, ⟨9, _⟩ => ⟨S8192x28672, .f32⟩
  | .hbm, ⟨10, _⟩ => ⟨S16x28672, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S28672x8192_S28672x64x128 : S28672x8192.ShapeCasts S28672x64x128
  bcast_S28672x64_S28672x64x1_0_1 : S28672x64.BroadcastsInDim S28672x64x1 (![0, 1] : Fin 2 → Fin S28672x64x1.rank)
  bcast_S28672x64x1_S28672x64x128_0_1_2 : S28672x64x1.BroadcastsInDim S28672x64x128 (![0, 1, 2] : Fin 3 → Fin S28672x64x128.rank)
  shapeCasts_S28672x64x128_S28672x8192 : S28672x64x128.ShapeCasts S28672x8192
  transposes_S28672x8192_S8192x28672_1_0 : S28672x8192.Transposes [1, 0] S8192x28672
  dot_S16x8192_S8192x28672_S16x28672_1_0_0_1_n_n_wf : DotDims.WF S16x8192 S8192x28672 S16x28672 [1] [0] [0] [1] [] []

variable [Facts₀]

def dot_S16x8192_S8192x28672_S16x28672_1_0_0_1_n_n : DotDims S16x8192 S8192x28672 S16x28672 where
  lhsContracting := [1]
  rhsContracting := [0]
  lhsNonContracting := [0]
  rhsNonContracting := [1]
  lhsBatch := []
  rhsBatch := []
  wf := dot_S16x8192_S8192x28672_S16x28672_1_0_0_1_n_n_wf

class Facts : Prop extends Facts₀ where

variable [Facts]
-- ==== Proof.GroupTerm.lean ====
/-
  One quantization group of the kernel's body, as a function of the values it loads, and that term read at an index.

  For each of the 64 groups the body loads a [256, 128] slab of integer weights, the matching [16, 128] slab of activations
  and one [1, 256] row of scales; it multiplies the activations by the weights read as numbers (contracting the 128 places of
  the group, into a zero accumulator), multiplies the [16, 256] partial product column by column by the row of scales, and adds
  the result onto the running total. At the exact extended-real reading, entry (p, q) of the new total is the old entry plus
  (the sum over the 128 places k of activation (p, k) times weight (q, k)) times scale q.
-/
import proofs.«118807_j51393578664547_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable {F : FTy → Type} [FloatOps F]

/-- One group's step: the running total `acc` plus (activations × weights over the group's 128 places) scaled column by
    column by the group's row of scales. The operations are the body's own, in its order. -/
def groupStep (acc : FVec F S16x256 .f32) (w : Vec F S256x128 .i32) (x : Vec F S16x128 .bf16) (s : Vec F S1x256 .f32) :
    FVec F S16x256 .f32 :=
  addf acc (mulf
    (matmul dot_S16x128_S256x128_S16x256_1_1_0_0_n_n none (shapeCast S16x128 x shapeCasts_S16x128_S16x128) (sitofp .bf16 w)
      (constant S16x256 .f32 0x00000000#32))
    (broadcastTo S16x256 (shapeCast S1x256 (shapeCast S256 s shapeCasts_S1x256_S256) shapeCasts_S256_S1x256)
      broadcasts_S1x256_S16x256))

/-! ## The contraction's operand indices: output (p, q) and place k read activations (p, k) and weights (q, k) -/

local notation "𝔻" => dot_S16x128_S256x128_S16x256_1_1_0_0_n_n

theorem lhs_row (i : S16x256.Idx) (κ : (𝔻).contr.Idx) : ((𝔻).lhsIdx i κ 0).val = (i 0).val := by
  unfold DotDims.lhsIdx
  rw [dif_neg (show ¬(0 : Fin S16x128.rank) ∈ (𝔻).lhsBatch by decide),
    dif_pos (show (0 : Fin S16x128.rank) ∈ (𝔻).lhsNonContracting by decide)]
  rfl

theorem lhs_place (i : S16x256.Idx) (κ : (𝔻).contr.Idx) : ((𝔻).lhsIdx i κ 1).val = (κ ⟨0, by decide⟩).val :=
  (𝔻).lhsIdx_val_of_single rfl i κ

theorem rhs_row (i : S16x256.Idx) (κ : (𝔻).contr.Idx) : ((𝔻).rhsIdx i κ 0).val = (i 1).val := by
  unfold DotDims.rhsIdx
  rw [dif_neg (show ¬(0 : Fin S256x128.rank) ∈ (𝔻).rhsBatch by decide),
    dif_pos (show (0 : Fin S256x128.rank) ∈ (𝔻).rhsNonContracting by decide)]
  rfl

theorem rhs_place (i : S16x256.Idx) (κ : (𝔻).contr.Idx) : ((𝔻).rhsIdx i κ 1).val = (κ ⟨0, by decide⟩).val :=
  (𝔻).rhsIdx_val_of_single rfl i κ

/-- The matrix product into a zero accumulator, at entry (p, q): the sum over the 128 places. -/
theorem product_apply (l : FVec Ideal S16x128 .bf16) (r : FVec Ideal S256x128 .bf16) (p : Fin 16) (q : Fin 256) :
    matmul (𝔻) none l r (constant S16x256 .f32 0x00000000#32) (ix2 p q) = ∑ k : Fin 128, l (ix2 p k) * r (ix2 q k) := by
  show FloatOps.matmul (𝔻) none l r (constant S16x256 .f32 0x00000000#32) (ix2 p q) = _
  rw [Ideal.matmul_constant_zero_apply, ← Equiv.sum_comp (contrEquiv1 (𝔻) 128 rfl rfl).symm]
  refine Finset.sum_congr rfl fun k _ => ?_
  have hk := contrEquiv1_symm_val (𝔻) 128 rfl rfl k
  have el : (𝔻).lhsIdx (ix2 p q) ((contrEquiv1 (𝔻) 128 rfl rfl).symm k) = ix2 p k := funext fun a => Fin.ext (by
    match a with
    | ⟨0, _⟩ => exact lhs_row _ _
    | ⟨1, _⟩ => exact (lhs_place _ _).trans hk)
  have er : (𝔻).rhsIdx (ix2 p q) ((contrEquiv1 (𝔻) 128 rfl rfl).symm k) = ix2 q k := funext fun a => Fin.ext (by
    match a with
    | ⟨0, _⟩ => exact rhs_row _ _
    | ⟨1, _⟩ => exact (rhs_place _ _).trans hk)
  rw [el, er]

/-- One group's step at entry (p, q), at the exact reading: the integer weights enter as the reals they denote. -/
theorem groupStep_apply (acc : FVec Ideal S16x256 .f32) (w : IVec S256x128 32) (x : FVec Ideal S16x128 .bf16)
    (s : FVec Ideal S1x256 .f32) (p : Fin 16) (q : Fin 256) :
    groupStep (F := Ideal) acc w x s (ix2 p q)
      = acc (ix2 p q) + (∑ k : Fin 128, x (ix2 p k) * (((w (ix2 q k)).toInt : ℝ) : EReal)) * s (ix2 (0 : Fin 1) q) := by
  unfold groupStep
  rw [addf_apply, mulf_apply, shapeCast_self, shapeCast_shapeCast, broadcastTo_1b_ab_apply, product_apply]
  rfl

end Cert.KernelIdeal.Hand

end
-- ==== Proof.GroupedSum.lean ====
/-
  The one algebraic law of this certificate, over abstract index sets.

  A contraction over 8192 positions whose right factor carries a scale that is constant on each run of 128 consecutive
  positions can be summed run by run: for every run `g` the 128 products `x · w` are added first and the run's scale is
  applied once to that partial sum; adding the 64 scaled partial sums gives the same number as adding all 8192 products
  `x · (w · s)`. Over the reals this is distributivity of the product over a finite sum, associativity of the product, and
  the bijection (run, place in the run) ↦ 128 · run + place. Over the extended reals distributivity needs every entry to be a
  real number, so the law is stated for entries that are (coercions of) reals.
-/
import Mathlib.Data.EReal.Basic
import Mathlib.Algebra.BigOperators.Fin
import Mathlib.Algebra.BigOperators.Ring.Finset
import Mathlib.Tactic

noncomputable section

namespace Cert.GroupedSum

open Finset

/-- Position `128 · g + k`: place `k` of run `g`. -/
def pos (g : Fin 64) (k : Fin 128) : Fin 8192 := ⟨128 * g.val + k.val, by have := g.isLt; have := k.isLt; omega⟩

/-- The run a position lies in. -/
def runOf (i : Fin 8192) : Fin 64 := ⟨i.val / 128, by have := i.isLt; omega⟩

/-- The place of a position inside its run. -/
def placeOf (i : Fin 8192) : Fin 128 := ⟨i.val % 128, Nat.mod_lt _ (by decide)⟩

theorem runOf_pos (g : Fin 64) (k : Fin 128) : runOf (pos g k) = g :=
  Fin.ext (by have := g.isLt; have := k.isLt; show (128 * g.val + k.val) / 128 = g.val; omega)

theorem placeOf_pos (g : Fin 64) (k : Fin 128) : placeOf (pos g k) = k :=
  Fin.ext (by have := g.isLt; have := k.isLt; show (128 * g.val + k.val) % 128 = k.val; omega)

theorem pos_runOf_placeOf (i : Fin 8192) : pos (runOf i) (placeOf i) = i :=
  Fin.ext (by show 128 * (i.val / 128) + i.val % 128 = i.val; omega)

/-- Positions are pairs (run, place). -/
def posEquiv : Fin 64 × Fin 128 ≃ Fin 8192 where
  toFun p := pos p.1 p.2
  invFun i := (runOf i, placeOf i)
  left_inv p := Prod.ext (runOf_pos p.1 p.2) (placeOf_pos p.1 p.2)
  right_inv i := pos_runOf_placeOf i

/-- The law over the reals. -/
theorem real_law (x w : Fin 8192 → ℝ) (s : Fin 64 → ℝ) :
    ∑ g : Fin 64, (∑ k : Fin 128, x (pos g k) * w (pos g k)) * s g
      = ∑ i : Fin 8192, x i * (w i * s (runOf i)) := by
  rw [← Equiv.sum_comp posEquiv (fun i => x i * (w i * s (runOf i))), Fintype.sum_prod_type]
  refine Finset.sum_congr rfl fun g _ => ?_
  rw [Finset.sum_mul]
  refine Finset.sum_congr rfl fun k _ => ?_
  show x (pos g k) * w (pos g k) * s g = x (pos g k) * (w (pos g k) * s (runOf (pos g k)))
  rw [runOf_pos, mul_assoc]

/-- A finite sum of reals, read in the extended reals, is the sum of the readings. -/
theorem coe_sum {ι : Type} (t : Finset ι) (f : ι → ℝ) : ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The law over the extended reals, for real entries. -/
theorem ereal_law (x w : Fin 8192 → ℝ) (s : Fin 64 → ℝ) :
    ∑ g : Fin 64, (∑ k : Fin 128, (x (pos g k) : EReal) * (w (pos g k) : EReal)) * (s g : EReal)
      = ∑ i : Fin 8192, (x i : EReal) * ((w i : EReal) * (s (runOf i) : EReal)) := by
  simp only [← EReal.coe_mul, ← coe_sum]
  exact congrArg _ (real_law x w s)

/-- The law as the certificate uses it: the left factor and the scales are extended reals KNOWN to be real (the
    precondition's finiteness), the middle factor is an integer read as a real. -/
theorem grouped_law (x : Fin 8192 → EReal) (w : Fin 8192 → ℝ) (s : Fin 64 → EReal)
    (hx : ∀ i, ∃ r : ℝ, x i = (r : EReal)) (hs : ∀ g, ∃ r : ℝ, s g = (r : EReal)) :
    ∑ g : Fin 64, (∑ k : Fin 128, x (pos g k) * (w (pos g k) : EReal)) * s g
      = ∑ i : Fin 8192, x i * ((w i : EReal) * s (runOf i)) := by
  choose xr hxr using hx
  choose sr hsr using hs
  simp only [hxr, hsr]
  exact ereal_law xr w sr

end Cert.GroupedSum

end
-- ==== Proof.BodyValue.lean ====
/-
  What the body leaves in the output block, as ONE function of the three input blocks.

  The body is the 64 group steps in order, from a zero total: group `g` loads columns `128·g … 128·g + 127` of the weight block
  and of the activation block, and row `g` of the scale block. Read at entry (p, q) of the [16, 256] output block, the total is
  the sum over the groups g of (the sum over the places k of activation (p, 128·g + k) times weight (q, 128·g + k)) times
  scale (g, q).
-/
import proofs.«118807_j51393578664547_2_alg».proof.Proof.Gen.KernelIdeal.Frame
import proofs.«118807_j51393578664547_2_alg».proof.Proof.GroupTerm
import proofs.«118807_j51393578664547_2_alg».proof.Proof.GroupedSum

set_option maxRecDepth 16384

noncomputable section

namespace Cert.KernelIdeal.Hand

open Cert.KernelIdeal Cert.KernelIdeal.Gen Idealize.ShloMosaic Idealize.ShloMosaic.ValueIdx
open Cert.GroupedSum (pos)

variable {F : FTy → Type} [FloatOps F]

/-! ## The three slabs group `g` loads -/

/-- Columns `128·g … 128·g + 127` of the [256, 8192] weight block. -/
abbrev weightSlab (g : Fin 64) : Rect S256x8192 :=
  Rect.unit (s := S256x8192) ![0, 128 * g.val] S256x128.size
    (Rect.inb₂ (by show 0 + 256 ≤ 256; omega) (by show 128 * g.val + 128 ≤ 8192; have := g.isLt; omega))

/-- Columns `128·g … 128·g + 127` of the [16, 8192] activation block. -/
abbrev actSlab (g : Fin 64) : Rect S16x8192 :=
  Rect.unit (s := S16x8192) ![0, 128 * g.val] S16x128.size
    (Rect.inb₂ (by show 0 + 16 ≤ 16; omega) (by show 128 * g.val + 128 ≤ 8192; have := g.isLt; omega))

/-- Row `g` of the [64, 256] scale block. -/
abbrev scaleRow (g : Fin 64) : Rect S64x256 :=
  Rect.unit (s := S64x256) ![g.val, 0] S1x256.size
    (Rect.inb₂ (by show g.val + 1 ≤ 64; have := g.isLt; omega) (by show 0 + 256 ≤ 256; omega))

/-- The body's total after the groups of a list, from `init`: one group step per group, in the list's order. -/
def groupsFrom (x0 : Vec F S16x8192 .bf16) (x1 : Vec F S256x8192 .i32) (x2 : Vec F S64x256 .f32)
    (init : FVec F S16x256 .f32) (L : List (Fin 64)) : FVec F S16x256 .f32 :=
  L.foldl (fun acc g => groupStep acc (View.ld x1 (weightSlab g)) (View.ld x0 (actSlab g)) (View.ld x2 (scaleRow g))) init

theorem finRange_64 : List.finRange 64 = ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] : List (Fin 64)) := by decide

theorem hz : (![0, 0] : Fin 2 → Nat) = fun _ => 0 := funext fun a => by fin_cases a <;> rfl

/-- The output block after the body is the 64 group steps, groups 0 to 63 in order, from the zero total: the body's text
    is exactly this sequence, each group's loads at its own literal offsets. -/
theorem out_eq_groups (x0 : Vec F S16x8192 .bf16) (x1 : Vec F S256x8192 .i32) (x2 : Vec F S64x256 .f32) :
    out0_3 x0 x1 x2 = groupsFrom x0 x1 x2 (broadcast S16x256 (Scalar.ofBits .f32 0x00000000#32)) (List.finRange 64) := by
  unfold out0_3
  rw [View.canon_unit_zero hz, finRange_64]
  unfold groupsFrom
  simp only [List.foldl_cons, List.foldl_nil]
  unfold k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 groupStep
  rfl

end Cert.KernelIdeal.Hand

end
-- ==== Proof.BodyAtIndex.lean ====
/-
  The output block after the body, read at an entry.

  Group `g`'s loads are columns `128·g + k` of the weight and activation blocks and row `g` of the scale block, so the 64 group
  steps from a zero total leave, at entry (p, q), the sum over the groups of that group's scaled partial product.
-/
import proofs.«118807_j51393578664547_2_alg».proof.Proof.BodyValue

noncomputable section

namespace Cert.KernelIdeal.Hand

open Cert.KernelIdeal Cert.KernelIdeal.Gen Idealize.ShloMosaic Idealize.ShloMosaic.ValueIdx
open Cert.GroupedSum (pos)

/-- Place `k` of group `g`'s activation slab is column `128·g + k` of the block. -/
theorem actSlab_apply (x0 : FVec Ideal S16x8192 .bf16) (g : Fin 64) (p : Fin 16) (k : Fin 128) :
    View.ld (Val := Elt Ideal) (e' := .bf16) x0 (actSlab g) (ix2 p k) = x0 (ix2 p (pos g k)) :=
  congrArg x0 (funext fun a => Fin.ext (by
    match a with
    | ⟨0, _⟩ => show 0 + 1 * p.val = p.val; omega
    | ⟨1, _⟩ => show 128 * g.val + 1 * k.val = 128 * g.val + k.val; omega))

/-- Place `k` of group `g`'s weight slab is column `128·g + k` of the block. -/
theorem weightSlab_apply (x1 : IVec S256x8192 32) (g : Fin 64) (q : Fin 256) (k : Fin 128) :
    View.ld (Val := Elt Ideal) (e' := .i32) x1 (weightSlab g) (ix2 q k) = x1 (ix2 q (pos g k)) :=
  congrArg x1 (funext fun a => Fin.ext (by
    match a with
    | ⟨0, _⟩ => show 0 + 1 * q.val = q.val; omega
    | ⟨1, _⟩ => show 128 * g.val + 1 * k.val = 128 * g.val + k.val; omega))

/-- Group `g`'s row of scales is row `g` of the block. -/
theorem scaleRow_apply (x2 : FVec Ideal S64x256 .f32) (g : Fin 64) (q : Fin 256) :
    View.ld (Val := Elt Ideal) (e' := .f32) x2 (scaleRow g) (ix2 (0 : Fin 1) q) = x2 (ix2 g q) :=
  congrArg x2 (funext fun a => Fin.ext (by
    match a with
    | ⟨0, _⟩ => show g.val + 1 * 0 = g.val; omega
    | ⟨1, _⟩ => show 0 + 1 * q.val = q.val; omega))

/-- Group `g`'s contribution to entry (p, q): its 128 products added, then scaled once. -/
def groupTerm (x0 : FVec Ideal S16x8192 .bf16) (x1 : IVec S256x8192 32) (x2 : FVec Ideal S64x256 .f32)
    (p : Fin 16) (q : Fin 256) (g : Fin 64) : EReal :=
  (∑ k : Fin 128, x0 (ix2 p (pos g k)) * (((x1 (ix2 q (pos g k))).toInt : ℝ) : EReal)) * x2 (ix2 g q)

/-- One group step on the group's own loads, at entry (p, q): the old entry plus the group's contribution. -/
theorem groupStep_loads_apply (x0 : FVec Ideal S16x8192 .bf16) (x1 : IVec S256x8192 32) (x2 : FVec Ideal S64x256 .f32)
    (acc : FVec Ideal S16x256 .f32) (g : Fin 64) (p : Fin 16) (q : Fin 256) :
    groupStep (F := Ideal) acc (View.ld (Val := Elt Ideal) (e' := .i32) x1 (weightSlab g))
        (View.ld (Val := Elt Ideal) (e' := .bf16) x0 (actSlab g)) (View.ld (Val := Elt Ideal) (e' := .f32) x2 (scaleRow g)) (ix2 p q)
      = acc (ix2 p q) + groupTerm x0 x1 x2 p q g := by
  rw [groupStep_apply, scaleRow_apply]
  unfold groupTerm
  refine congrArg (fun z => acc (ix2 p q) + z * x2 (ix2 g q)) (Finset.sum_congr rfl fun k _ => ?_)
  rw [actSlab_apply, weightSlab_apply]

/-- The group steps of a list, from `init`, at entry (p, q): `init`'s entry plus the groups' contributions. -/
theorem groupsFrom_apply (x0 : FVec Ideal S16x8192 .bf16) (x1 : IVec S256x8192 32) (x2 : FVec Ideal S64x256 .f32)
    (p : Fin 16) (q : Fin 256) :
    ∀ (L : List (Fin 64)) (init : FVec Ideal S16x256 .f32),
      groupsFrom (F := Ideal) x0 x1 x2 init L (ix2 p q) = init (ix2 p q) + (L.map (groupTerm x0 x1 x2 p q)).sum
  | [], init => by
    show init (ix2 p q) = init (ix2 p q) + 0
    rw [add_zero]
  | g :: L, init => by
    show groupsFrom (F := Ideal) x0 x1 x2
      (groupStep init (View.ld (Val := Elt Ideal) (e' := .i32) x1 (weightSlab g))
        (View.ld (Val := Elt Ideal) (e' := .bf16) x0 (actSlab g)) (View.ld (Val := Elt Ideal) (e' := .f32) x2 (scaleRow g))) L (ix2 p q) = _
    rw [groupsFrom_apply x0 x1 x2 p q L, groupStep_loads_apply, List.map_cons, List.sum_cons, add_assoc]

/-- Entry (p, q) of the output block after the body. -/
theorem out_apply (x0 : FVec Ideal S16x8192 .bf16) (x1 : IVec S256x8192 32) (x2 : FVec Ideal S64x256 .f32)
    (p : Fin 16) (q : Fin 256) :
    out0_3 (F := Ideal) x0 x1 x2 (ix2 p q) = ∑ g : Fin 64, groupTerm x0 x1 x2 p q g := by
  rw [out_eq_groups, groupsFrom_apply, broadcast_apply, Fin.sum_univ_def]
  show Ideal.ofBits .f32 0x00000000#32 + _ = _
  rw [Ideal.ofBits_zero_f32, zero_add]

end Cert.KernelIdeal.Hand

end
-- ==== Proof.Spec.lean ====
/-
  The result both programs compute, as ONE function of the three argument arrays, and the form in which the kernel adds it up.

  Entry (p, o) of the [16, 28672] result is the contraction over the 8192 input features k of activation (p, k) times the
  dequantized weight (o, k), which is the integer weight (o, k) read as a number times the scale of output channel `o` for the
  group `k / 128` that feature `k` lies in. The reference computes it in this form. The kernel adds it group by group, scaling
  each group's partial sum once; the two agree when the activations and the scales are real numbers (the grouped-sum law).
-/
import Idealize.ShloMosaic.Lib.ValueIdx
import proofs.«118807_j51393578664547_2_alg».proof.Proof.GroupedSum

noncomputable section

namespace Cert.Spec

open Idealize.ShloMosaic Idealize.ShloMosaic.ValueIdx Cert.GroupedSum

/-- Every entry of an array of extended reals is a real number. -/
def Finite {s : Shape} (A : s.Idx → EReal) : Prop := ∀ i, ∃ r : ℝ, A i = (r : EReal)

/-- Entry (p, o) of the result: activations against dequantized weights, over all 8192 features. -/
def resultAt (X : (⟨2, ![16, 8192]⟩ : Shape).Idx → EReal) (W : (⟨2, ![28672, 8192]⟩ : Shape).Idx → BitVec 32)
    (S : (⟨2, ![28672, 64]⟩ : Shape).Idx → EReal) (p : Fin 16) (o : Fin 28672) : EReal :=
  ∑ k : Fin 8192, X (ix2 p k) * ((((W (ix2 o k)).toInt : ℝ) : EReal) * S (ix2 o (runOf k)))

/-- The result array. -/
def result (X : (⟨2, ![16, 8192]⟩ : Shape).Idx → EReal) (W : (⟨2, ![28672, 8192]⟩ : Shape).Idx → BitVec 32)
    (S : (⟨2, ![28672, 64]⟩ : Shape).Idx → EReal) : (⟨2, ![16, 28672]⟩ : Shape).Idx → EReal :=
  fun i => resultAt X W S ⟨(i 0).val, (i 0).isLt⟩ ⟨(i 1).val, (i 1).isLt⟩

theorem result_ix2 (X : (⟨2, ![16, 8192]⟩ : Shape).Idx → EReal) (W : (⟨2, ![28672, 8192]⟩ : Shape).Idx → BitVec 32)
    (S : (⟨2, ![28672, 64]⟩ : Shape).Idx → EReal) (p : Fin 16) (o : Fin 28672) :
    result X W S (ix2 p o) = resultAt X W S p o := rfl

/-- The kernel's grouped form of an entry — per group the 128 products added and scaled once, the 64 groups added — is the
    entry, for real activations and scales. -/
theorem grouped_eq_resultAt (X : (⟨2, ![16, 8192]⟩ : Shape).Idx → EReal) (W : (⟨2, ![28672, 8192]⟩ : Shape).Idx → BitVec 32)
    (S : (⟨2, ![28672, 64]⟩ : Shape).Idx → EReal) (hX : Finite X) (hS : Finite S) (p : Fin 16) (o : Fin 28672) :
    ∑ g : Fin 64, (∑ k : Fin 128, X (ix2 p (pos g k)) * (((W (ix2 o (pos g k))).toInt : ℝ) : EReal)) * S (ix2 o g)
      = resultAt X W S p o :=
  grouped_law (fun k => X (ix2 p k)) (fun k => ((W (ix2 o k)).toInt : ℝ)) (fun g => S (ix2 o g))
    (fun k => hX _) (fun g => hS _)

end Cert.Spec

end
-- ==== Proof.KernelValue.lean ====
/-
  From the output blocks to the result array.

  The grid has 112 points. Point `t` takes rows `256·t … 256·t + 255` of the weights (all 8192 columns), columns
  `256·t … 256·t + 255` of the transposed scales (all 64 rows), the whole activation array, and writes columns
  `256·t … 256·t + 255` of the result (all 16 rows). The activations the region finds are the argument's (the change of float
  format before the region is the identity on the extended reals); the scales it finds are the argument's, transposed. So what
  point `t` writes back is block `t` of the one whole-array function `Spec.result` of the three arguments; the 112 blocks tile
  the result array, which therefore ends holding `Spec.result`.
-/
import proofs.«118807_j51393578664547_2_alg».proof.Proof.Gen.KernelIdeal.Value
import proofs.«118807_j51393578664547_2_alg».proof.Proof.BodyAtIndex
import proofs.«118807_j51393578664547_2_alg».proof.Proof.Spec
import Idealize.ShloMosaic.Lib.StableHlo.Run
import Idealize.ShloMosaic.Lib.ValueLayout

noncomputable section

namespace Cert.KernelIdeal.Hand

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays as launched. -/
abbrev acts (c : Dev nD) : S16x8192.Idx → EReal := m ((c : Thread nD τ).loc main_arg0)
abbrev weights (c : Dev nD) : S28672x8192.Idx → BitVec 32 := m ((c : Thread nD τ).loc main_arg1)
abbrev scales (c : Dev nD) : S28672x64.Idx → EReal := m ((c : Thread nD τ).loc main_arg2)

/-! ## What the region finds in the two arrays the host wrote -/

/-- The activations the region stages: the argument with its float format changed. -/
theorem region_acts (c : Dev nD) :
    @Eq (FVec Ideal S16x8192 .bf16) (V m c main_v0) (truncf .bf16 (acts m c) bitsLt_bf16_f32) := by
  dsimp only [V, hostOps0]; after_results <;> rfl

/-- The scales the region stages: the argument transposed. -/
theorem region_scales (c : Dev nD) :
    @Eq (FVec Ideal S64x28672 .f32) (V m c main_v1)
      (transpose S64x28672 [1, 0] (scales m c) transposes_S28672x64_S64x28672_1_0) := by
  dsimp only [V, hostOps0]; after_results <;> rfl

/-! ## The index maps over the grid -/

/-- The printed index maps, decided over the 112 points: the activation window stays at block (0, 0); the weight window is at
    block row `t`; the scale window and the result window are at block column `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 112 := by
  have h : cfg0.N = 112 := N_0
  have := t.isLt
  omega

/-! ## Each input window's block at a point, as entries of the arguments -/

/-- The activation block at any point is the whole activation argument. -/
theorem acts_block (c : Dev nD) (t : Fin cfg0.N) (p : Fin 16) (j : Fin 8192) :
    (iblk m c 0 t : FVec Ideal S16x8192 .bf16) (ix2 p j) = acts m c (ix2 p j) := by
  obtain ⟨e00, e01, -, -, -, -, -, -⟩ := idx_facts t
  unfold iblk
  rw [View.read_apply]
  show V m c main_v0 (((cfg0.win 0).blk t).view.emb (ix2 p j)) = _
  rw [region_acts, truncf_apply]
  refine congrArg (acts m c) (funext fun a => Fin.ext ?_)
  match a with
  | ⟨0, _⟩ => show win0_0.index t (0 : Fin 2) * 16 + 1 * p.val = p.val; rw [e00]; omega
  | ⟨1, _⟩ => show win0_0.index t (1 : Fin 2) * 8192 + 1 * j.val = j.val; rw [e01]; omega

/-- Row `q` of the weight block at point `t` is row `256·t + q` of the weight argument. -/
theorem weights_block (c : Dev nD) (t : Fin cfg0.N) (q : Fin 256) (j : Fin 8192) :
    (iblk m c 1 t : IVec S256x8192 32) (ix2 q j)
      = weights m c (ix2 ⟨256 * t.val + q.val, by have := point_lt t; have := q.isLt; omega⟩ j) := by
  obtain ⟨-, -, e10, e11, -, -, -, -⟩ := idx_facts t
  unfold iblk
  rw [View.read_apply]
  show V m c main_arg1 (((cfg0.win 1).blk t).view.emb (ix2 q j)) = _
  rw [V_main_arg1]
  refine congrArg (weights m c) (funext fun a => Fin.ext ?_)
  match a with
  | ⟨0, _⟩ => show win0_1.index t (0 : Fin 2) * 256 + 1 * q.val = 256 * t.val + q.val; rw [e10]; omega
  | ⟨1, _⟩ => show win0_1.index t (1 : Fin 2) * 8192 + 1 * j.val = j.val; rw [e11]; omega

/-- Entry (g, q) of the scale block at point `t` is the scale of output channel `256·t + q` for group `g`. -/
theorem scales_block (c : Dev nD) (t : Fin cfg0.N) (g : Fin 64) (q : Fin 256) :
    (iblk m c 2 t : FVec Ideal S64x256 .f32) (ix2 g q)
      = scales m c (ix2 ⟨256 * t.val + q.val, by have := point_lt t; have := q.isLt; omega⟩ g) := by
  obtain ⟨-, -, -, -, e20, e21, -, -⟩ := idx_facts t
  unfold iblk
  rw [View.read_apply]
  show V m c main_v1 (((cfg0.win 2).blk t).view.emb (ix2 g q)) = _
  rw [region_scales]
  have e : ((cfg0.win 2).blk t).view.emb (ix2 g q)
      = ix2 g (⟨256 * t.val + q.val, by have := point_lt t; have := q.isLt; omega⟩ : Fin 28672) :=
    funext fun a => Fin.ext (by
      match a with
      | ⟨0, _⟩ => show win0_2.index t (0 : Fin 2) * 64 + 1 * g.val = g.val; rw [e20]; omega
      | ⟨1, _⟩ => show win0_2.index t (1 : Fin 2) * 256 + 1 * q.val = 256 * t.val + q.val; rw [e21]; omega)
  rw [e]
  exact transpose_ix2_apply (scales m c) transposes_S28672x64_S64x28672_1_0 _ _

/-! ## One point's output block is its block of the result -/

/-- The body's output block at entry (p, q), for input blocks that are rows / columns `256·T + ·` of the arguments, is entry
    (p, 256·T + q) of the result: the body's grouped sum is the whole contraction (real activations and scales). -/
theorem block_value (x0 : FVec Ideal S16x8192 .bf16) (x1 : IVec S256x8192 32) (x2 : FVec Ideal S64x256 .f32)
    (X : S16x8192.Idx → EReal) (W : S28672x8192.Idx → BitVec 32) (S : S28672x64.Idx → EReal)
    (T : ℕ) (hT : T < 112)
    (h0 : ∀ (p : Fin 16) (j : Fin 8192), x0 (ix2 p j) = X (ix2 p j))
    (h1 : ∀ (q : Fin 256) (j : Fin 8192), x1 (ix2 q j) = W (ix2 ⟨256 * T + q.val, by have := q.isLt; omega⟩ j))
    (h2 : ∀ (g : Fin 64) (q : Fin 256), x2 (ix2 g q) = S (ix2 ⟨256 * T + q.val, by have := q.isLt; omega⟩ g))
    (hX : Cert.Spec.Finite X) (hS : Cert.Spec.Finite S) (p : Fin 16) (q : Fin 256) :
    out0_3 (F := Ideal) x0 x1 x2 (ix2 p q)
      = Cert.Spec.result X W S (ix2 p ⟨256 * T + q.val, by have := q.isLt; omega⟩) := by
  rw [out_apply, Cert.Spec.result_ix2]
  unfold groupTerm
  simp only [h0, h1, h2]
  exact Cert.Spec.grouped_eq_resultAt X W S hX hS p _

/-- WHAT POINT `t` WRITES BACK is block `t` of the result. -/
theorem flushed_eq (c : Dev nD) (hX : Cert.Spec.Finite (acts m c)) (hS : Cert.Spec.Finite (scales m c)) (t : Fin cfg0.N) :
    (dats m 0 c).flushed 3 t
      = ((cfg0.win 3).blk t).view.read (Elt Ideal) (Cert.Spec.result (acts m c) (weights m c) (scales m c)) := by
  show (cfg0.win 3).cut (grid0.coords t) ((dats m 0 c).after 3 t) = _
  rw [after0_3]
  obtain ⟨-, -, -, -, -, -, e30, e31⟩ := idx_facts t
  funext j
  obtain ⟨p, q, rfl⟩ : ∃ (p : Fin 16) (q : Fin 256), j = ix2 p q := ⟨j 0, j 1, eq_ix2 (n0 := 16) (n1 := 256) j⟩
  show out0_3 (F := Ideal) (iblk m c 0 t) (iblk m c 1 t) (iblk m c 2 t) (ix2 p q)
    = Cert.Spec.result (acts m c) (weights m c) (scales m c) (((cfg0.win 3).blk t).view.emb (ix2 p q))
  have e : ((cfg0.win 3).blk t).view.emb (ix2 p q)
      = ix2 p (⟨256 * t.val + q.val, by have := point_lt t; have := q.isLt; omega⟩ : Fin 28672) :=
    funext fun a => Fin.ext (by
      match a with
      | ⟨0, _⟩ => show win0_3.index t (0 : Fin 2) * 16 + 1 * p.val = p.val; rw [e30]; omega
      | ⟨1, _⟩ => show win0_3.index t (1 : Fin 2) * 256 + 1 * q.val = 256 * t.val + q.val; rw [e31]; omega)
  rw [e]
  exact block_value (iblk m c 0 t) (iblk m c 1 t) (iblk m c 2 t) (acts m c) (weights m c) (scales m c) t.val (point_lt t)
    (acts_block m c t) (weights_block m c t) (scales_block m c t) hX hS p q

/-! ## The blocks tile the result array -/

/-- An index of the result array is in point `t`'s block iff each coordinate is in the block's range on its axis. -/
theorem mem_blk (t : Fin cfg0.N) (i : S16x28672.Idx) :
    i ∈ ((cfg0.win 3).blk t).view.set ↔ ∀ a : Fin 2, win0_3.index t a * S16x256.size a ≤ (i a).val
      ∧ (i a).val < win0_3.index t a * S16x256.size a + S16x256.size a := by
  show i ∈ ((View.whole main_v2).slice (win0_3.rect t)).set ↔ _
  rw [View.set_slice_whole, Rect.mem_set_unit]
  exact Iff.rfl

/-- Column `o` of the result lies in the block of point `o / 256`. -/
theorem cover (i : S16x28672.Idx) :
    ∃ t : Fin cfg0.N, (cfg0.win 3).flush t = true ∧ i ∈ ((cfg0.win 3).blk t).view.set := by
  have h0 : (i 0).val < 16 := (i 0).isLt
  have h1 : (i 1).val < 28672 := (i 1).isLt
  have hN : cfg0.N = 112 := N_0
  have hlt : (i 1).val / 256 < cfg0.N := by rw [hN]; omega
  refine ⟨⟨(i 1).val / 256, hlt⟩, flush0_3 _, ?_⟩
  obtain ⟨-, -, -, -, -, -, e30, e31⟩ := idx_facts ⟨(i 1).val / 256, hlt⟩
  rw [mem_blk]
  intro a
  match a with
  | ⟨0, _⟩ =>
    show win0_3.index ⟨(i 1).val / 256, hlt⟩ (0 : Fin 2) * 16 ≤ (i 0).val
      ∧ (i 0).val < win0_3.index ⟨(i 1).val / 256, hlt⟩ (0 : Fin 2) * 16 + 16
    rw [e30]; omega
  | ⟨1, _⟩ =>
    show win0_3.index ⟨(i 1).val / 256, hlt⟩ (1 : Fin 2) * 256 ≤ (i 1).val
      ∧ (i 1).val < win0_3.index ⟨(i 1).val / 256, hlt⟩ (1 : Fin 2) * 256 + 256
    rw [e31]
    show (i 1).val / 256 * 256 ≤ (i 1).val ∧ (i 1).val < (i 1).val / 256 * 256 + 256
    omega

/-- THE RESULT ARRAY after the run is `Spec.result` of the three arguments. -/
theorem final (c : Dev nD) (hX : Cert.Spec.Finite (acts m c)) (hS : Cert.Spec.Finite (scales m c)) :
    (dats m 0 c).arrAt 3 cfg0.N = Cert.Spec.result (acts m c) (weights m c) (scales m c) :=
  (dats m 0 c).arrAt_eq_of_cover 3 (Cert.Spec.result (acts m c) (weights m c) (scales m c))
    (fun t _ => flushed_eq m c hX hS t) cover

/-- The kernel's run, read: the result array at `Spec.result` of the arguments, the arguments unchanged. -/
theorem run (hfin : ∀ c : Dev nD, Cert.Spec.Finite (acts m c) ∧ Cert.Spec.Finite (scales m c)) :
    θ_run defs (onTc (τ := τ) (main (F := Ideal))) ⟨m, fun _ => 0, ρ⟩ fun r => ∀ c : Dev nD,
      r.2.mem ((c : Thread nD τ).loc main_v2) = Cert.Spec.result (acts m c) (weights m c) (scales m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2), (h c).2⟩)
    (Cert.KernelIdeal.Value.run_blocks m ρ)

end Cert.KernelIdeal.Hand

end
-- ==== Proof.RefValue.lean ====
/-
  The reference's result is `Spec.result` of the three arguments.

  The reference reads the integer weights as numbers, regroups each row's 8192 features as 64 groups of 128, multiplies group
  `g` of row `o` by the scale (o, g), flattens back, transposes, and contracts the activations against the transposed product.
  Read at entry (p, o) and feature k: reshaping [28672, 8192] → [28672, 64, 128] → [28672, 8192] is the identity on the row-major
  position, so feature k of row o meets scale (o, k / 128).
-/
import proofs.«118807_j51393578664547_2_alg».proof.Proof.Gen.ReferenceIdeal.Read
import proofs.«118807_j51393578664547_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open Cert.GroupedSum (runOf)

/-- The reference's last stage, as a function of the three arguments, is the result. -/
theorem stage_eq_result (X : FVec Ideal S16x8192 .f32) (W : IVec S28672x8192 32) (S : FVec Ideal S28672x64 .f32) :
    val_main_v7 (F := Ideal) X W S = Cert.Spec.result X W S := by
  funext i
  obtain ⟨p, o, rfl⟩ : ∃ (p : Fin 16) (o : Fin 28672), i = ix2 p o := ⟨i 0, i 1, eq_ix2 (n0 := 16) (n1 := 28672) i⟩
  rw [val_main_v7_apply, Cert.Spec.result_ix2]
  unfold Cert.Spec.resultAt
  refine Finset.sum_congr rfl fun k _ => ?_
  have hp := p.isLt
  have ho := o.isLt
  have hk := k.isLt
  -- the left operand is read at (p, k)
  have e1 : lidx_main_v7 (ix2 p o) k = ix2 p k :=
    funext fun a => Fin.ext (by match a with | ⟨0, _⟩ => rfl | ⟨1, _⟩ => rfl)
  -- the weight is read at (o, k): position o·8192 + k, regrouped and flattened back
  have e2 : idx_main_v1 (idx_main_v5 (idx_main_v6 (ridx_main_v7 (ix2 p o) k))) = ix2 o k :=
    funext fun a => Fin.ext (by
      match a with
      | ⟨0, _⟩ =>
        show (((o.val * 8192 + k.val) / 8192 * 64 + (o.val * 8192 + k.val) / 128 % 64) * 128 + (o.val * 8192 + k.val) % 128) / 8192 = o.val
        omega
      | ⟨1, _⟩ =>
        show (((o.val * 8192 + k.val) / 8192 * 64 + (o.val * 8192 + k.val) / 128 % 64) * 128 + (o.val * 8192 + k.val) % 128) % 8192 = k.val
        omega)
  -- the scale is read at (o, k / 128)
  have e3 : idx_main_v2 (idx_main_v3 (idx_main_v5 (idx_main_v6 (ridx_main_v7 (ix2 p o) k)))) = ix2 o (runOf k) :=
    funext fun a => Fin.ext (by
      match a with
      | ⟨0, _⟩ => show (o.val * 8192 + k.val) / 8192 = o.val; omega
      | ⟨1, _⟩ => show (o.val * 8192 + k.val) / 128 % 64 = k.val / 128; omega)
  rw [val_main_v6_apply, val_main_v5_apply, val_main_v4_apply, val_main_v1_apply, val_main_v0_apply, val_main_v3_apply,
    val_main_v2_apply, e1, e2, e3]
  rfl

end Cert.ReferenceIdeal.RefValue

end
-- ==== Proof.FiniteInputs.lean ====
/-
  What the precondition gives: every activation and every scale is a real number.

  The precondition is the conjunction of two `all`s: |x| < +inf at every entry of the activations, and the same at every entry
  of the scales. An extended real whose absolute value max(x, −x) lies strictly below +inf is neither infinity, so it is a real.
-/
import proofs.«118807_j51393578664547_2_alg».proof.Pre_finite_inputs
import proofs.«118807_j51393578664547_2_alg».proof.Proof.Gen.Pre_finite_inputs
import proofs.«118807_j51393578664547_2_alg».proof.Proof.Spec
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Idealize.ShloMosaic.ValueIdx Cert.Pre_finite_inputs

/-- The word 0x7F800000 denotes +inf. -/
theorem inf_word : Ideal.ofBits .f32 0x7F800000#32 = (⊤ : EReal) := by
  simp [Ideal.ofBits, Ideal.ieee]

/-- An extended real whose absolute value is strictly below +inf is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exfalso; revert h; simp [Ideal.cmp]
  | coe r => exact ⟨r, rfl⟩
  | top => exfalso; revert h; simp [Ideal.cmp]

instance : Subsingleton S_.Idx := ⟨fun a b => funext fun d => d.elim0⟩

/-- The precondition, read: the activations and the scales are arrays of real numbers. -/
theorem finite_of_pre (X : FVec Ideal S16x8192 .f32) (W : IVec S28672x8192 32) (S : FVec Ideal S28672x64 .f32)
    (h : fn (F := Ideal) X W S = fun _ => 1#1) : Cert.Spec.Finite X ∧ Cert.Spec.Finite S := by
  have h0 := congrFun h ix0
  dsimp only [fn] at h0
  obtain ⟨hx, hs⟩ := IntOp.andi_eq_one.1 h0
  exact ⟨fun i => real_of_abs_lt_inf _ (Host.reduce_andi_all _ _ _ _ _ hx i),
    fun i => real_of_abs_lt_inf _ (Host.reduce_andi_all _ _ _ _ _ hs i)⟩

end Cert.FiniteInputs

end
-- ==== Proof.lean ====
/-
  The certificate: a weight-only int8 grouped-dequantization linear layer, computed by a Pallas kernel group by group,
  against its jnp reference.

  Both programs compute, for activations x : [16, 8192], integer weights w : [28672, 8192] and scales s : [28672, 64],
      out[p, o] = Σ_k x[p, k] · (w[o, k] · s[o, k / 128])          (k over the 8192 input features).
  The reference dequantizes the whole weight matrix and contracts once. The kernel walks 112 tiles of 256 output channels; in a
  tile it adds, for each of the 64 groups g of 128 features, (Σ_{k in g} x[p, k] · w[o, k]) · s[o, g] — the scale applied once
  per group to the group's partial product. On the extended reals the two agree because every activation and every scale is a
  real number (the precondition) and every integer weight is one: distributivity then holds (GroupedSum.lean).

  The kernel's run and each output block as a term of its input blocks are generated (Gen/KernelIdeal/Frame.lean, Value.lean), as
  are the reference's run and its stages read at an index (Gen/ReferenceIdeal/Run.lean, Read.lean). Written here: one group's term
  at an entry (GroupTerm.lean); the body as the 64 group steps and its output block at an entry (BodyValue.lean, BodyAtIndex.lean);
  the result as one function of the arguments (Spec.lean); from blocks to the array (KernelValue.lean); the reference's last stage
  is that function (RefValue.lean); the precondition read as finiteness (FiniteInputs.lean); and the claims below. No operation
  of the kernel is rewritten in its idealization, so the idealization conjunct is trivial.
-/
import proofs.«118807_j51393578664547_2_alg».proof.Defs
import proofs.«118807_j51393578664547_2_alg».proof.Proof.Gen.Kernel
import proofs.«118807_j51393578664547_2_alg».proof.Proof.Gen.Kernel.Skeleton
import proofs.«118807_j51393578664547_2_alg».proof.Proof.Gen.Kernel.Launch
import proofs.«118807_j51393578664547_2_alg».proof.Proof.Gen.Kernel.Points
import proofs.«118807_j51393578664547_2_alg».proof.Proof.Gen.Kernel.Frame
import proofs.«118807_j51393578664547_2_alg».proof.Proof.Gen.KernelIdeal
import proofs.«118807_j51393578664547_2_alg».proof.Proof.Gen.KernelIdeal.Skeleton
import proofs.«118807_j51393578664547_2_alg».proof.Proof.Gen.KernelIdeal.Launch
import proofs.«118807_j51393578664547_2_alg».proof.Proof.Gen.KernelIdeal.Points
import proofs.«118807_j51393578664547_2_alg».proof.Proof.Gen.KernelIdeal.Frame
import proofs.«118807_j51393578664547_2_alg».proof.Proof.Gen.ReferenceIdeal
import proofs.«118807_j51393578664547_2_alg».proof.Proof.Gen.Pre_finite_inputs
import proofs.«118807_j51393578664547_2_alg».proof.Proof.Gen.KernelIdeal.Value
import proofs.«118807_j51393578664547_2_alg».proof.Proof.Gen.ReferenceIdeal.Run
import proofs.«118807_j51393578664547_2_alg».proof.Proof.Gen.ReferenceIdeal.Read
import proofs.«118807_j51393578664547_2_alg».proof.Proof.KernelValue
import proofs.«118807_j51393578664547_2_alg».proof.Proof.RefValue
import proofs.«118807_j51393578664547_2_alg».proof.Proof.FiniteInputs
import Idealize.ShloMosaic.Adequacy
import Idealize.ShloMosaic.Init

noncomputable section

namespace Cert.Proof

open Idealize.ShloMosaic Idealize.SL.Sem

/-- The word-level kernel runs and leaves its arguments as they were (the generated frame). -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array ends at `Spec.result` of the arguments (the 112 blocks, each the grouped
    sums of its tile, which are the whole contractions because the precondition makes activations and scales real), and the
    reference's at its last stage of arguments that agree, which is the same function. -/
theorem algebraic : Cert.algebraic_KernelIdeal_ReferenceIdeal := by
  intro m ρ m' ρ' hpre hagree
  have hfin : ∀ c : Dev Cert.KernelIdeal.nD,
      Cert.Spec.Finite (Cert.KernelIdeal.Hand.acts m c) ∧ Cert.Spec.Finite (Cert.KernelIdeal.Hand.scales m c) :=
    fun c => Cert.FiniteInputs.finite_of_pre _ _ _ (hpre c)
  refine ⟨fun c => Cert.Spec.result (Cert.KernelIdeal.Hand.acts m c) (Cert.KernelIdeal.Hand.weights m c)
    (Cert.KernelIdeal.Hand.scales m c), Cert.KernelIdeal.Hand.run m ρ hfin, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.stage_eq_result _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
